-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S50000x1 : Shape := ⟨2, ![50000, 1]⟩
abbrev S850000x128 : Shape := ⟨2, ![850000, 128]⟩
abbrev S1x128 : Shape := ⟨2, ![1, 128]⟩
abbrev S50000x64 : Shape := ⟨2, ![50000, 64]⟩
abbrev S5000x1 : Shape := ⟨2, ![5000, 1]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 69
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S1x128, .f32⟩
  | .hbm, ⟨45, _⟩ => ⟨S50000x1, .f32⟩
  | .hbm, ⟨46, _⟩ => ⟨S50000x64, .f32⟩
  | .hbm, ⟨47, _⟩ => ⟨S50000x1, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S128x64, .f32⟩
  | .local _ .vmem, ⟨11, _⟩ => ⟨S5000x64, .f32⟩
  | .local _ .vmem, ⟨12, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  @main is six segments: host operations, the first dense layer's region, host operations, the second layer's
  region, host operations. Every weakly fair execution terminates, and in the final state every unscoped buffer
  holds the last boundary's contents — the fold of the segments from the launch memory. Stated here for the
  result buffer beside the six arguments: the result ends at that fold read at the result, the arguments as
  launched.
-/
import proofs.«177192_j81406810129168_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the arguments as launched. -/
theorem run_value : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.ValueRun

end
-- ==== Proof.Spec.lean ====
/-
  The dense pieces of the two-layer graph convolution, as functions of whole arrays, index by index.

  `dense1 x w` and `dense2 h w` are the products rows-by-columns of a [50000, 128] array with a [128, 128] and a
  [128, 64] weight matrix: entry (r, c) is the sum over k of the row's entry k times the weight (k, c).
  `act a d b` is what enters the second product on the kernel's side: the aggregated array scaled row by row by
  the node's coefficient (held as a [50000, 1] column), plus the bias (held as a [1, 128] row), cut off below at
  zero.
-/
import Idealize.ShloMosaic.PureOps.Ideal
import Idealize.ShloMosaic.Lib.ValueIdx

noncomputable section

namespace Cert.Spec

open Idealize.ShloMosaic Idealize.ShloMosaic.ValueIdx

/-- The first layer's dense transform: rows of `x` by columns of `w`. -/
def dense1 (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (n0 := 50000) ⟨(i 0).val, (i 0).isLt⟩ k) * w (ix2 k (n1 := 128) ⟨(i 1).val, (i 1).isLt⟩)

/-- The second layer's dense transform: rows of `h` by columns of `w`. -/
def dense2 (h : (⟨2, ![50000, 128]⟩ : Shape).Idx → EReal) (w : (⟨2, ![128, 64]⟩ : Shape).Idx → EReal) :
    (⟨2, ![50000, 64]⟩ : Shape).Idx → EReal :=
  fun i => ∑ k : Fin 128, h (ix2 (n0 := 50000) ⟨(i 0).val, (i 0).isLt⟩ k) * w (ix2 k (n1 := 64) ⟨(i 1).val, (i 1).isLt⟩)

/-- Scale row `r` by the column's entry `r`, add the bias row, cut off below at zero. -/
def act (a : (⟨2, ![50000, 128]⟩ : Shape).Idx → EReal) (d : (⟨2, ![50000, 1]⟩ : Shape).Idx → EReal)
    (b : (⟨2, ![1, 128]⟩ : Shape).Idx → EReal) : (⟨2, ![50000, 128]⟩ : Shape).Idx → EReal :=
  fun i => max (a i * d (ix2 (n0 := 50000) ⟨(i 0).val, (i 0).isLt⟩ (0 : Fin 1)) + b (ix2 (0 : Fin 1) (n1 := 128) ⟨(i 1).val, (i 1).isLt⟩)) 0

end Cert.Spec

end
-- ==== Proof.Layer1.lean ====
/-
  What the first region leaves in its output array: the dense transform of the whole input.

  The region runs the body at ten points; point `t` loads rows [5000 t, 5000 t + 5000) of the input and the whole
  weight matrix, multiplies them on the matrix unit into a zero accumulator, and writes the [5000, 128] block back
  to the same rows of the output. A change of float format is the identity at the ideal instance, so entry (r, c)
  of the block is the sum over k of the row's entry k times the weight (k, c): the block is the restriction of
  the whole product to its rows, and the ten blocks tile the output.
-/
import proofs.«177192_j81406810129168_2_alg».proof.Proof.Gen.KernelIdeal.Frame
import proofs.«177192_j81406810129168_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- The left operand's index at output entry `j` and contraction index `q`: row `j 0`. -/
theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The right operand's index at output entry `j` and contraction index `q`: column `j 1`. -/
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's product at an entry of the block: the sum over the contracted axis. -/
theorem block_entry (x0 : Vec Ideal S5000x128 .f32) (x1 : Vec Ideal S128x128 .f32) (j : S5000x128.Idx) :
    k0_pay1 (F := Ideal) x0 x1 j
      = ∑ k : Fin 128, x0 (ix2 (n0 := 5000) ⟨(j 0).val, (j 0).isLt⟩ k) * x1 (ix2 k (n1 := 128) ⟨(j 1).val, (j 1).isLt⟩) := by
  unfold k0_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j
      ((contrEquiv1 dot_S5000x128_S128x128_S5000x128_1_0_0_1_n_n 128 rfl rfl).symm k) = ix2 (n0 := 5000) ⟨(j 0).val, (j 0).isLt⟩ k :=
    funext fun a => Fin.ext (by
      match a with
      | ⟨0, _⟩ => exact lhs_row _ _
      | ⟨1, _⟩ => exact (dot_S5000x128_S128x128_S5000x128_1_0_0_1_n_n.lhsIdx_val_of_single rfl j _).trans hk)
  have er : dot_S5000x128_S128x128_S5000x128_1_0_0_1_n_n.rhsIdx j
      ((contrEquiv1 dot_S5000x128_S128x128_S5000x128_1_0_0_1_n_n 128 rfl rfl).symm k) = ix2 k (n1 := 128) ⟨(j 1).val, (j 1).isLt⟩ :=
    funext fun a => Fin.ext (by
      match a with
      | ⟨0, _⟩ => exact (dot_S5000x128_S128x128_S5000x128_1_0_0_1_n_n.rhsIdx_val_of_single rfl j _).trans hk
      | ⟨1, _⟩ => exact rhs_col _ _)
  rw [el, er]
  rfl

/-- The printed index maps, decided over the ten points: the input's row block moves with the output's, the weight
    matrix stays, and the output's row block at point `t` is block `t`. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product of the arrays as the region finds them. -/
theorem flushed_eq (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero offs_zero]
  simp only [View.ld_unit_zero (S := S5000x128) offs_zero, View.ld_unit_zero (S := S128x128) offs_zero]
  obtain ⟨e0, e1, e2, e3, e4, e5⟩ := index_facts t
  funext j
  refine (block_entry (iblk0 V c 0 t) (iblk0 V c 1 t) j).trans ?_
  show _ = dense1 (V c main_arg0) (V c main_arg2) (((cfg0.win 2).blk t).view.emb j)
  unfold dense1
  refine Finset.sum_congr rfl fun k _ => congrArg₂ (· * ·) ?_ ?_
  · show V c main_arg0 (((cfg0.win 0).blk t).view.emb _) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb _) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- The blocks tile the output: row `r` is in the block of point `r / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the dense transform of the input array by the weight matrix. -/
theorem final (c : Dev nD) : (dat0 V c).arrAt 2 cfg0.N = dense1 (V c main_arg0) (V c main_arg2) :=
  (dat0 V c).arrAt_eq_of_cover 2 (dense1 (V c main_arg0) (V c main_arg2)) (fun t _ => flushed_eq V c t) (covered)

end Cert.KernelIdeal.Layer1

end
-- ==== Proof.Layer2.lean ====
/-
  What the second region leaves in its output array: the second dense transform of the activated aggregate.

  The region runs the body at ten points; point `t` loads rows [5000 t, 5000 t + 5000) of the aggregated array
  and of the coefficient column, the whole bias row and the whole weight matrix. The body scales each row of the
  block by its coefficient, adds the bias, cuts off below at zero, and multiplies by the weight matrix on the
  matrix unit into a zero accumulator; the [5000, 64] block is written back to the same rows of the output. Every
  step is row-wise, so the block is the restriction of one whole-array function to its rows, and the ten blocks
  tile the output.
-/
import proofs.«177192_j81406810129168_2_alg».proof.Proof.Gen.KernelIdeal.Frame
import proofs.«177192_j81406810129168_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- A [5000, 1] column broadcast to [5000, 128] reads, at (p, c), the column's entry p. -/
theorem column_broadcast {α : Type} (v : (⟨2, ![5000, 1]⟩ : Shape).Idx → α)
    (h : (⟨2, ![5000, 1]⟩ : Shape).Broadcasts ⟨2, ![5000, 128]⟩) (p : Fin 5000) (c : Fin 128) :
    broadcastTo ⟨2, ![5000, 128]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The left operand's index at output entry `j` and contraction index `q`: row `j 0`. -/
theorem lhs_row (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- The right operand's index at output entry `j` and contraction index `q`: column `j 1`. -/
theorem rhs_col (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The body's result at an entry of the block: the sum over k of the activated entry (row, k) times the weight
    (k, column). -/
theorem block_entry (x0 : Vec Ideal S5000x128 .f32) (x1 : Vec Ideal S5000x1 .f32) (x2 : Vec Ideal S1x128 .f32)
    (x3 : Vec Ideal S128x64 .f32) (j : S5000x64.Idx) :
    k1_pay1 (F := Ideal) x0 x1 x2 x3 j
      = ∑ k : Fin 128, max (x0 (ix2 (n0 := 5000) ⟨(j 0).val, (j 0).isLt⟩ k) * x1 (ix2 (n0 := 5000) ⟨(j 0).val, (j 0).isLt⟩ (0 : Fin 1))
            + x2 (ix2 (0 : Fin 1) k)) 0 * x3 (ix2 k (n1 := 64) ⟨(j 1).val, (j 1).isLt⟩) := by
  unfold k1_pay1
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx j
      ((contrEquiv1 dot_S5000x128_S128x64_S5000x64_1_0_0_1_n_n 128 rfl rfl).symm k) = ix2 (n0 := 5000) ⟨(j 0).val, (j 0).isLt⟩ k :=
    funext fun a => Fin.ext (by
      match a with
      | ⟨0, _⟩ => exact lhs_row _ _
      | ⟨1, _⟩ => exact (dot_S5000x128_S128x64_S5000x64_1_0_0_1_n_n.lhsIdx_val_of_single rfl j _).trans hk)
  have er : dot_S5000x128_S128x64_S5000x64_1_0_0_1_n_n.rhsIdx j
      ((contrEquiv1 dot_S5000x128_S128x64_S5000x64_1_0_0_1_n_n 128 rfl rfl).symm k) = ix2 k (n1 := 64) ⟨(j 1).val, (j 1).isLt⟩ :=
    funext fun a => Fin.ext (by
      match a with
      | ⟨0, _⟩ => exact (dot_S5000x128_S128x64_S5000x64_1_0_0_1_n_n.rhsIdx_val_of_single rfl j _).trans hk
      | ⟨1, _⟩ => exact rhs_col _ _)
  rw [el, er]
  refine congrArg₂ (· * ·) ?_ rfl
  simp only [truncf_apply, maximumf_apply, addf_apply, mulf_apply, broadcast_apply, shapeCast_self]
  rw [column_broadcast, broadcastTo_1b_ab_apply]
  simp only [Scalar.ofBits, Ideal.ofBits_def, Ideal.ofBits_zero_f32]

/-- The printed index maps, decided over the ten points: the aggregate's and the coefficient column's row blocks
    move with the output's, the bias row and the weight matrix stay, and the output's row block at point `t` is
    block `t`. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every row block is some point's. -/
theorem index_onto : ∀ q : Fin 10, ∃ t : Fin cfg1.N, win1_4.index t = ![q.val, 0] :=
  (by decide +kernel : ∀ q : Fin 10, ∃ t : Fin grid1.N, win1_4.index t = ![q.val, 0])

/-- What point `t` writes back is block `t` of the whole-array function of the arrays as the region finds them. -/
theorem flushed_eq (c : Dev nD) (t : Fin cfg1.N) :
    (dat1 V c).flushed 4 t = ((cfg1.win 4).blk t).view.read (Elt Ideal)
      (dense2 (act (V c main_v28) (V c main_v30) (V c main_v29)) (V c main_arg4)) := by
  show (cfg1.win 4).cut (grid1.coords t) ((dat1 V c).after 4 t) = _
  rw [after1_4]
  unfold out1_4
  rw [View.canon_unit_zero offs_zero]
  simp only [View.ld_unit_zero (S := S5000x128) offs_zero, View.ld_unit_zero (S := S5000x1) offs_zero,
    View.ld_unit_zero (S := S1x128) offs_zero, View.ld_unit_zero (S := S128x64) offs_zero]
  obtain ⟨e0, e1, e2, e3, e4, e5, e6, e7, e8, e9⟩ := index_facts t
  funext j
  refine (block_entry (iblk1 V c 0 t) (iblk1 V c 1 t) (iblk1 V c 2 t) (iblk1 V c 3 t) j).trans ?_
  show _ = dense2 (act (V c main_v28) (V c main_v30) (V c main_v29)) (V c main_arg4) (((cfg1.win 4).blk t).view.emb j)
  unfold dense2 act
  refine Finset.sum_congr rfl fun k _ => congrArg₂ (· * ·) ?_ ?_
  · refine congrArg (fun z : EReal => max z 0) (congrArg₂ (· + ·) (congrArg₂ (· * ·) ?_ ?_) ?_)
    · show V c main_v28 (((cfg1.win 0).blk t).view.emb _) = V c main_v28 _
      refine congrArg (V c main_v28) (funext fun a => Fin.ext ?_)
      match a with
      | ⟨0, _⟩ => show win1_0.index t (0 : Fin 2) * 5000 + 1 * (j 0).val = win1_4.index t (0 : Fin 2) * 5000 + 1 * (j 0).val; omega
      | ⟨1, _⟩ => show win1_0.index t (1 : Fin 2) * 128 + 1 * k.val = k.val; omega
    · show V c main_v30 (((cfg1.win 1).blk t).view.emb _) = V c main_v30 _
      refine congrArg (V c main_v30) (funext fun a => Fin.ext ?_)
      match a with
      | ⟨0, _⟩ => show win1_1.index t (0 : Fin 2) * 5000 + 1 * (j 0).val = win1_4.index t (0 : Fin 2) * 5000 + 1 * (j 0).val; omega
      | ⟨1, _⟩ => show win1_1.index t (1 : Fin 2) * 1 + 1 * 0 = 0; omega
    · show V c main_v29 (((cfg1.win 2).blk t).view.emb _) = V c main_v29 _
      refine congrArg (V c main_v29) (funext fun a => Fin.ext ?_)
      match a with
      | ⟨0, _⟩ => show win1_2.index t (0 : Fin 2) * 1 + 1 * 0 = 0; omega
      | ⟨1, _⟩ => show win1_2.index t (1 : Fin 2) * 128 + 1 * k.val = k.val; omega
  · show V c main_arg4 (((cfg1.win 3).blk t).view.emb _) = V c main_arg4 _
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega

/-- An index of the output is in point `t`'s block iff each coordinate is in the block's range on its axis. -/
theorem mem_block (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v31).slice (win1_4.rect t)).set ↔ _
  rw [View.set_slice_whole, Rect.mem_set_unit]
  exact Iff.rfl

/-- The blocks tile the output: row `r` is in the block of point `r / 5000`. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAY after the region: the second dense transform of the activated aggregate. -/
theorem final (c : Dev nD) :
    (dat1 V c).arrAt 4 cfg1.N = dense2 (act (V c main_v28) (V c main_v30) (V c main_v29)) (V c main_arg4) :=
  (dat1 V c).arrAt_eq_of_cover 4 (dense2 (act (V c main_v28) (V c main_v30) (V c main_v29)) (V c main_arg4))
    (fun t _ => flushed_eq V c t) (covered)

end Cert.KernelIdeal.Layer2

end
-- ==== Proof.Terms.lean ====
/-
  The host-side pieces of the two programs, each as one function of arrays.

  Both programs add a self-loop to every node, count each node's incoming edges (`degree`), and take the
  reciprocal square root of the count as the node's coefficient (`coeff`; zero where the count is not positive).
  An edge e sends the row `src e` of a node array to the row `dst e`: rows are gathered at the source row numbers
  (negative ones wrapped around, `wrap`) and summed into the destination rows (`scatter-add`).
  The reference scales each edge's row by the product of the two endpoint coefficients before summing
  (`aggEdge128`, `aggEdge64`); the kernel scales the node array by the coefficient before gathering
  (`aggNode128`, `aggNode64`) and scales the sums by the coefficient afterwards.
-/
import proofs.«177192_j81406810129168_2_alg».proof.Proof.Gen.KernelIdeal
import proofs.«177192_j81406810129168_2_alg».proof.Proof.Gen.ReferenceIdeal
import proofs.«177192_j81406810129168_2_alg».proof.Proof.Spec
import Idealize.ShloMosaic.PureOps.Ideal

noncomputable section

namespace Cert.Gcn

open Cert.ReferenceIdeal Idealize.ShloMosaic Cert.Spec
open Cert.ReferenceIdeal.Facts₀

/-- The 850000 source row numbers: the first row of the edge list, then 0 … 49999 for the self-loops. -/
def srcRows (x1 : IVec S2x800000 32) : IVec S850000 32 :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The 850000 destination row numbers: the second row of the edge list, then 0 … 49999 for the self-loops. -/
def dstRows (x1 : IVec S2x800000 32) : IVec S850000 32 :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- A negative row number counts from the end: 50000 is added to it. -/
def wrap (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A per-edge array as a one-column array. -/
def col {α : Type} (v : S850000.Idx → α) : S850000x1.Idx → α :=
  broadcastInDim S850000x1 ![0] bcast_S850000_S850000x1_0 v

/-- One per edge. -/
def ones : FVec Ideal S850000 .f32 := broadcastInDim S850000 ![] bcast_S_S850000 (constant S_ .f32 0x3F800000#32)

/-- The number of edges arriving at each node, the self-loop among them. -/
def degree (x1 : IVec S2x800000 32) : FVec Ideal S50000 .f32 :=
  Host.scatterAdd scatter_S50000_S850000x1_S850000_n_0_0_1 (broadcastInDim S50000 ![] bcast_S_S50000 (constant S_ .f32 0x00000000#32)) (col (dstRows x1)) ones

/-- The node's coefficient: the reciprocal square root of its degree where that is positive, else zero. -/
def coeff (x1 : IVec S2x800000 32) : FVec Ideal S50000 .f32 :=
  select (cmpf .ogt (degree x1) (broadcastInDim S50000 ![] bcast_S_S50000 (constant S_ .f32 0x00000000#32))) (Host.rsqrt (degree x1)) (broadcastInDim S50000 ![] bcast_S_S50000 (id (constant S_ .f32 0x00000000#32)))

/-- The edge's coefficient: the source's, times one, times the destination's. -/
def edgeCoeff (d : FVec Ideal S50000 .f32) (s t : IVec S850000 32) : FVec Ideal S850000 .f32 :=
  mulf (mulf (Host.gather gather_S50000_S850000x1_S850000_n_0_n_n_0_1_1 d (col (wrap s))) ones) (Host.gather gather_S50000_S850000x1_S850000_n_0_n_n_0_1_1 d (col (wrap t)))

/-- The reference's aggregation of a [50000, 128] array: gather, scale each edge's row, sum into the destinations. -/
def aggEdge128 (h : FVec Ideal S50000x128 .f32) (d : FVec Ideal S50000 .f32) (s t : IVec S850000 32) : FVec Ideal S50000x128 .f32 :=
  Host.scatterAdd scatter_S50000x128_S850000x1_S850000x128_1_0_0_1 (broadcastInDim S50000x128 ![] bcast_S_S50000x128 (constant S_ .f32 0x00000000#32)) (col t)
    (mulf (Host.gather gather_S50000x128_S850000x1_S850000x128_1_0_n_n_0_1_1128 h (col (wrap s))) (broadcastInDim S850000x128 ![0, 1] bcast_S850000x1_S850000x128_0_1 (col (edgeCoeff d s t))))

/-- The same for a [50000, 64] array. -/
def aggEdge64 (h : FVec Ideal S50000x64 .f32) (d : FVec Ideal S50000 .f32) (s t : IVec S850000 32) : FVec Ideal S50000x64 .f32 :=
  Host.scatterAdd scatter_S50000x64_S850000x1_S850000x64_1_0_0_1 (broadcastInDim S50000x64 ![] bcast_S_S50000x64 (constant S_ .f32 0x00000000#32)) (col t)
    (mulf (Host.gather gather_S50000x64_S850000x1_S850000x64_1_0_n_n_0_1_164 h (col (wrap s))) (broadcastInDim S850000x64 ![0, 1] bcast_S850000x1_S850000x64_0_1 (col (edgeCoeff d s t))))

/-- A per-node array spread over 128 columns. -/
def spread128 (d : FVec Ideal S50000 .f32) : FVec Ideal S50000x128 .f32 :=
  broadcastInDim S50000x128 ![0, 1] Cert.KernelIdeal.Facts₀.bcast_S50000x1_S50000x128_0_1 (broadcastInDim Cert.KernelIdeal.S50000x1 ![0] Cert.KernelIdeal.Facts₀.bcast_S50000_S50000x1_0 d)

/-- A per-node array spread over 64 columns. -/
def spread64 (d : FVec Ideal S50000 .f32) : FVec Ideal S50000x64 .f32 :=
  broadcastInDim S50000x64 ![0, 1] Cert.KernelIdeal.Facts₀.bcast_S50000x1_S50000x64_0_1 (broadcastInDim Cert.KernelIdeal.S50000x1 ![0] Cert.KernelIdeal.Facts₀.bcast_S50000_S50000x1_0 d)

/-- The kernel's aggregation of a [50000, 128] array: scale each node's row, gather, sum into the destinations. -/
def aggNode128 (h : FVec Ideal S50000x128 .f32) (d : FVec Ideal S50000 .f32) (s t : IVec S850000 32) : FVec Ideal S50000x128 .f32 :=
  Host.scatterAdd scatter_S50000x128_S850000x1_S850000x128_1_0_0_1 (broadcastInDim S50000x128 ![] bcast_S_S50000x128 (constant S_ .f32 0x00000000#32)) (col t)
    (Host.gather gather_S50000x128_S850000x1_S850000x128_1_0_n_n_0_1_1128 (mulf h (spread128 d)) (col (wrap s)))

/-- The same for a [50000, 64] array. -/
def aggNode64 (h : FVec Ideal S50000x64 .f32) (d : FVec Ideal S50000 .f32) (s t : IVec S850000 32) : FVec Ideal S50000x64 .f32 :=
  Host.scatterAdd scatter_S50000x64_S850000x1_S850000x64_1_0_0_1 (broadcastInDim S50000x64 ![] bcast_S_S50000x64 (constant S_ .f32 0x00000000#32)) (col t)
    (Host.gather gather_S50000x64_S850000x1_S850000x64_1_0_n_n_0_1_164 (mulf h (spread64 d)) (col (wrap s)))

/-- A bias of 128 entries added to every row. -/
def biasRows128 (b : FVec Ideal S128 .f32) : FVec Ideal S50000x128 .f32 :=
  broadcastInDim S50000x128 ![0, 1] bcast_S1x128_S50000x128_0_1 (broadcastInDim S1x128 ![1] bcast_S128_S1x128_1 b)

/-- A bias of 64 entries added to every row. -/
def biasRows64 (b : FVec Ideal S64 .f32) : FVec Ideal S50000x64 .f32 :=
  broadcastInDim S50000x64 ![0, 1] bcast_S1x64_S50000x64_0_1 (broadcastInDim S1x64 ![1] bcast_S64_S1x64_1 b)

/-- THE KERNEL'S RESULT as one function of the six arguments. -/
def kernelOut (x0 : FVec Ideal S50000x128 .f32) (x1 : IVec S2x800000 32) (x2 : FVec Ideal S128x128 .f32) (x3 : FVec Ideal S128 .f32)
    (x4 : FVec Ideal S128x64 .f32) (x5 : FVec Ideal S64 .f32) : FVec Ideal S50000x64 .f32 :=
  addf (mulf (aggNode64 (dense2 (act (aggNode128 (dense1 x0 x2) (coeff x1) (srcRows x1) (dstRows x1))
      (shapeCast Cert.KernelIdeal.S50000x1 (coeff x1) Cert.KernelIdeal.Facts₀.shapeCasts_S50000_S50000x1)
      (shapeCast S1x128 x3 Cert.KernelIdeal.Facts₀.shapeCasts_S128_S1x128)) x4) (coeff x1) (srcRows x1) (dstRows x1)) (spread64 (coeff x1)))
    (biasRows64 x5)

/-- THE REFERENCE'S RESULT as one function of the six arguments. -/
def referenceOut (x0 : FVec Ideal S50000x128 .f32) (x1 : IVec S2x800000 32) (x2 : FVec Ideal S128x128 .f32) (x3 : FVec Ideal S128 .f32)
    (x4 : FVec Ideal S128x64 .f32) (x5 : FVec Ideal S64 .f32) : FVec Ideal S50000x64 .f32 :=
  addf (aggEdge64 (Host.dotGeneral dot_S50000x128_S128x64_S50000x64_1_0_0_1_n_n none
      (maximumf (addf (aggEdge128 (Host.dotGeneral dot_S50000x128_S128x128_S50000x128_1_0_0_1_n_n none x0 x2) (coeff x1) (srcRows x1) (dstRows x1)) (biasRows128 x3))
        (broadcastInDim S50000x128 ![] bcast_S_S50000x128 (constant S_ .f32 0x00000000#32))) x4) (coeff x1) (srcRows x1) (dstRows x1))
    (biasRows64 x5)

end Cert.Gcn

end
-- ==== Proof.KernelChain.lean ====
/-
  The idealized kernel's result as one function of its arguments.

  The contents of the buffers at the boundaries between @main's segments, read back from the last boundary to the
  launch memory: the result is the last stretch's operations applied to the second region's output, which is the
  second dense transform of the first stretch-between's aggregate, which is an aggregation of the first region's
  output, the first dense transform of the input. The row numbers and the node coefficients are computed once,
  before the first region, from the edge list; no later segment writes them, nor any argument.
-/
import proofs.«177192_j81406810129168_2_alg».proof.Proof.Gen.KernelIdeal.Frame
import proofs.«177192_j81406810129168_2_alg».proof.Proof.Layer1
import proofs.«177192_j81406810129168_2_alg».proof.Proof.Layer2
import proofs.«177192_j81406810129168_2_alg».proof.Proof.Terms
import Idealize.ShloMosaic.Lib.StableHlo.Run

set_option maxRecDepth 16384

noncomputable section

namespace Cert.KernelIdeal.Chain

open Cert.KernelIdeal Cert.KernelIdeal.Gen Cert.Gcn Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- After the one-pass read of a stretch, the operands of a `concatenate` are still spelt as the earlier
    operations' results: rewrite those too, each operation's result at its own buffer to its function's value and at
    any other buffer to what was there. -/
macro "more_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## Before the first region: the arguments as launched, the row numbers and the coefficients computed -/

theorem arg0_at2 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem arg2_at2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem arg3_at2 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem arg4_at2 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem arg5_at2 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- The source row numbers, from the edge list. -/
theorem src_at2 (c : Dev nD) : W2 m ρ c (Proc.devRef .tc main_v3) = srcRows (m ((c : Thread nD τ).loc main_arg1)) := by
  show StableHlo.after hostOps0_1 (StableHlo.after hostOps0 (W0 m ρ c)) (Proc.devRef .tc main_v3) = _
  after_results_simp <;> rfl

/-- The destination row numbers, from the edge list. -/
theorem dst_at2 (c : Dev nD) : W2 m ρ c (Proc.devRef .tc main_v6) = dstRows (m ((c : Thread nD τ).loc main_arg1)) := by
  show StableHlo.after hostOps0_1 (StableHlo.after hostOps0 (W0 m ρ c)) (Proc.devRef .tc main_v6) = _
  after_results_simp <;> rfl

/-- The degrees compared with zero, after the first stretch. -/
theorem positive_at1 (c : Dev nD) : W1 m ρ c (Proc.devRef .tc main_v12)
    = cmpf .ogt (degree (m ((c : Thread nD τ).loc main_arg1))) (broadcastInDim S50000 ![] Facts₀.bcast_S_S50000 (constant S_ .f32 0x00000000#32)) := by
  show StableHlo.after hostOps0 (W0 m ρ c) (Proc.devRef .tc main_v12) = _
  unfold degree ones col dstRows
  after_results_simp
  more_results
  rfl

/-- The reciprocal square roots of the degrees, after the first stretch. -/
theorem rsqrt_at1 (c : Dev nD) : W1 m ρ c (Proc.devRef .tc main_v13) = Host.rsqrt (degree (m ((c : Thread nD τ).loc main_arg1))) := by
  show StableHlo.after hostOps0 (W0 m ρ c) (Proc.devRef .tc main_v13) = _
  unfold degree ones col dstRows
  after_results_simp
  more_results
  rfl

/-- The zero the coefficient falls back to, after the first stretch. -/
theorem zero_at1 (c : Dev nD) : W1 m ρ c (Proc.devRef .tc main_cst_2) = constant (F := Ideal) S_ .f32 0x00000000#32 := by
  show StableHlo.after hostOps0 (W0 m ρ c) (Proc.devRef .tc main_cst_2) = _
  after_results_simp <;> rfl

/-- The selection's three operations, from any contents: the coefficient buffer ends at the selection of the second
    operand where the first is set, of the third's splat elsewhere. -/
theorem select_after (X : Valuation τ sig (Elt Ideal)) : StableHlo.after hostOps0_1 X (Proc.devRef .tc main_v14)
    = select (X (Proc.devRef .tc main_v12)) (X (Proc.devRef .tc main_v13))
        (broadcastInDim S50000 ![] Facts₀.bcast_S_S50000 (id (X (Proc.devRef .tc main_cst_2)))) := by
  after_results_simp <;> rfl

/-- The node coefficients, from the edge list. -/
theorem coeff_at2 (c : Dev nD) : W2 m ρ c (Proc.devRef .tc main_v14) = coeff (m ((c : Thread nD τ).loc main_arg1)) := by
  show StableHlo.after hostOps0_1 (W1 m ρ c) (Proc.devRef .tc main_v14) = _
  rw [select_after, positive_at1, rsqrt_at1, zero_at1]
  rfl

/-! ## The first region leaves them alone, and its output is the first dense transform -/
theorem v3_at3 (c : Dev nD) : W3 m ρ c (Proc.devRef .tc main_v3) = W2 m ρ c (Proc.devRef .tc main_v3) := W3_of_ne m ρ c main_v3 (by decide)
theorem v6_at3 (c : Dev nD) : W3 m ρ c (Proc.devRef .tc main_v6) = W2 m ρ c (Proc.devRef .tc main_v6) := W3_of_ne m ρ c main_v6 (by decide)
theorem v14_at3 (c : Dev nD) : W3 m ρ c (Proc.devRef .tc main_v14) = W2 m ρ c (Proc.devRef .tc main_v14) := W3_of_ne m ρ c main_v14 (by decide)
theorem arg3_at3 (c : Dev nD) : W3 m ρ c (Proc.devRef .tc main_arg3) = W2 m ρ c (Proc.devRef .tc main_arg3) := W3_of_ne m ρ c main_arg3 (by decide)
theorem arg4_at3 (c : Dev nD) : W3 m ρ c (Proc.devRef .tc main_arg4) = W2 m ρ c (Proc.devRef .tc main_arg4) := W3_of_ne m ρ c main_arg4 (by decide)
theorem arg5_at3 (c : Dev nD) : W3 m ρ c (Proc.devRef .tc main_arg5) = W2 m ρ c (Proc.devRef .tc main_arg5) := W3_of_ne m ρ c main_arg5 (by decide)

theorem dense_at3 (c : Dev nD) : W3 m ρ c (Proc.devRef .tc main_v15)
    = dense1 (m ((c : Thread nD τ).loc main_arg0)) (m ((c : Thread nD τ).loc main_arg2)) := by
  refine (W3_arr m ρ c 2).trans ((Layer1.final (V2 m ρ) c).trans ?_)
  show dense1 (W2 m ρ c (Proc.devRef .tc main_arg0)) (W2 m ρ c (Proc.devRef .tc main_arg2)) = _
  rw [arg0_at2, arg2_at2]

/-! ## Between the regions: the aggregate, the coefficient column, the bias row -/

theorem agg_at4 (c : Dev nD) : W4 m ρ c (Proc.devRef .tc main_v28)
    = aggNode128 (W3 m ρ c (Proc.devRef .tc main_v15)) (W3 m ρ c (Proc.devRef .tc main_v14)) (W3 m ρ c (Proc.devRef .tc main_v3)) (W3 m ρ c (Proc.devRef .tc main_v6)) := by
  show StableHlo.after hostOps1 (W3 m ρ c) (Proc.devRef .tc main_v28) = _
  after_results_simp <;> rfl

theorem coeffCol_at4 (c : Dev nD) : W4 m ρ c (Proc.devRef .tc main_v30)
    = shapeCast S50000x1 (W3 m ρ c (Proc.devRef .tc main_v14)) Facts₀.shapeCasts_S50000_S50000x1 := by
  show StableHlo.after hostOps1 (W3 m ρ c) (Proc.devRef .tc main_v30) = _
  after_results_simp <;> rfl

theorem biasRow_at4 (c : Dev nD) : W4 m ρ c (Proc.devRef .tc main_v29)
    = shapeCast S1x128 (W3 m ρ c (Proc.devRef .tc main_arg3)) Facts₀.shapeCasts_S128_S1x128 := by
  show StableHlo.after hostOps1 (W3 m ρ c) (Proc.devRef .tc main_v29) = _
  after_results_simp <;> rfl

theorem v3_at4 (c : Dev nD) : W4 m ρ c (Proc.devRef .tc main_v3) = W3 m ρ c (Proc.devRef .tc main_v3) :=
  StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem v6_at4 (c : Dev nD) : W4 m ρ c (Proc.devRef .tc main_v6) = W3 m ρ c (Proc.devRef .tc main_v6) :=
  StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem v14_at4 (c : Dev nD) : W4 m ρ c (Proc.devRef .tc main_v14) = W3 m ρ c (Proc.devRef .tc main_v14) :=
  StableHlo.after_of_forall_not_mem (b := Proc.devRef .tc main_v14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem arg4_at4 (c : Dev nD) : W4 m ρ c (Proc.devRef .tc main_arg4) = W3 m ρ c (Proc.devRef .tc main_arg4) :=
  StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem arg5_at4 (c : Dev nD) : W4 m ρ c (Proc.devRef .tc main_arg5) = W3 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The second region leaves them alone, and its output is the second dense transform of the activated aggregate -/
theorem v3_at5 (c : Dev nD) : W5 m ρ c (Proc.devRef .tc main_v3) = W4 m ρ c (Proc.devRef .tc main_v3) := W5_of_ne m ρ c main_v3 (by decide)
theorem v6_at5 (c : Dev nD) : W5 m ρ c (Proc.devRef .tc main_v6) = W4 m ρ c (Proc.devRef .tc main_v6) := W5_of_ne m ρ c main_v6 (by decide)
theorem v14_at5 (c : Dev nD) : W5 m ρ c (Proc.devRef .tc main_v14) = W4 m ρ c (Proc.devRef .tc main_v14) := W5_of_ne m ρ c main_v14 (by decide)
theorem arg5_at5 (c : Dev nD) : W5 m ρ c (Proc.devRef .tc main_arg5) = W4 m ρ c (Proc.devRef .tc main_arg5) := W5_of_ne m ρ c main_arg5 (by decide)

theorem dense_at5 (c : Dev nD) : W5 m ρ c (Proc.devRef .tc main_v31)
    = dense2 (act (W4 m ρ c (Proc.devRef .tc main_v28)) (W4 m ρ c (Proc.devRef .tc main_v30)) (W4 m ρ c (Proc.devRef .tc main_v29)))
        (W4 m ρ c (Proc.devRef .tc main_arg4)) :=
  (W5_arr m ρ c 4).trans (Layer2.final (V4 m ρ) c)

/-! ## After the second region: the last aggregation, the scale, the bias -/

theorem result_at6 (c : Dev nD) : W6 m ρ c (Proc.devRef .tc main_v50)
    = addf (mulf (aggNode64 (W5 m ρ c (Proc.devRef .tc main_v31)) (W5 m ρ c (Proc.devRef .tc main_v14)) (W5 m ρ c (Proc.devRef .tc main_v3)) (W5 m ρ c (Proc.devRef .tc main_v6)))
        (spread64 (W5 m ρ c (Proc.devRef .tc main_v14)))) (biasRows64 (W5 m ρ c (Proc.devRef .tc main_arg5))) := by
  show StableHlo.after hostOps2 (W5 m ρ c) (Proc.devRef .tc main_v50) = _
  after_results_simp <;> rfl

/-! ## The whole chain -/

/-- THE RESULT BUFFER at the last boundary is `kernelOut` of the six arguments as launched. -/
theorem result_eq (c : Dev nD) : W6 m ρ c (Proc.devRef .tc main_v50)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [result_at6, dense_at5, agg_at4, coeffCol_at4, biasRow_at4, dense_at3,
    v3_at5, v6_at5, v14_at5, arg5_at5, v3_at4, v6_at4, v14_at4, arg4_at4, arg5_at4,
    v3_at3, v6_at3, v14_at3, arg3_at3, arg4_at3, arg5_at3,
    src_at2, dst_at2, coeff_at2, arg3_at2, arg4_at2, arg5_at2]
  rfl

end Cert.KernelIdeal.Chain

end
-- ==== Proof.RefValue.lean ====
/-
  The reference's result as one function of its arguments.

  The reference's run ends with its result buffer at the composed term of its host operations; that term is
  `referenceOut` of the six arguments as launched, the shared pieces (row numbers, coefficients, the two
  aggregations) folded into their definitions.
-/
import proofs.«177192_j81406810129168_2_alg».proof.Proof.RefRun
import proofs.«177192_j81406810129168_2_alg».proof.Proof.Terms

set_option maxRecDepth 8192

noncomputable section

namespace Cert.ReferenceIdeal.RefValue

open Cert.ReferenceIdeal Cert.Gcn Idealize.ShloMosaic Idealize.ShloMosaic.TcCoe Idealize.SL.Sem

theorem result_eq (m : (ℓ : Loc nD τ sig) → Buf (Elt Ideal) ℓ) (c : Dev nD) :
    ValueP.res_main_v65 (F := Ideal) m c
      = referenceOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold ValueP.res_main_v65
  rfl

end Cert.ReferenceIdeal.RefValue

end
-- ==== Proof.RefIndex.lean ====
/-
  Index lemmas for the reference program's row gathers and row scatters.

  The program reads rows of a [50000, C] array, and entries of a [50000] array, at 850000 row numbers held as a
  [850000, 1] array of 32-bit words, and adds [850000, C] updates into a [50000, C] array at such row numbers.
  A gather reads its row number as a signed integer and clamps it into [0, 49999]; a scatter reads it as a signed
  integer without clamping and drops the update when the row lies outside the array. The lemmas below read each
  gather at one result index, and say where an update that is not dropped lands.
-/
import proofs.«177192_j81406810129168_2_alg».proof.Proof.Gen.ReferenceIdeal
import Idealize.ShloMosaic.Lib.ValueIdx
import Idealize.ShloMosaic.Lib.Pipeline.Value

noncomputable section

namespace Cert.ReferenceIdeal.Index

open Cert.ReferenceIdeal Cert.ReferenceIdeal.Gen Idealize.ShloMosaic Idealize.ShloMosaic.ValueIdx

/-- A 32-bit row number read as a signed integer and clamped into the 50000 rows: negative numbers go to row 0,
    numbers past the end to row 49999. -/
def clampRow (b : BitVec 32) : Fin 50000 := ⟨min b.toInt.toNat 49999, by omega⟩

/-! ## Where a row scatter lands -/

/-- An update of the 128-column row scatter that is not dropped lands in the row its row number names (read as a
    signed integer, which is then a natural number below 50000) and in its own column. -/
theorem scatter_lands_128 (idx : IVec S850000x1 32) (j : S850000x128.Idx) (i : S50000x128.Idx)
    (h : scatter_S50000x128_S850000x1_S850000x128_1_0_0_1.resultIdx? j idx = some i) :
    (idx (ix2 (j 0) (0 : Fin 1))).toInt = ((i 0).val : Int) ∧ (i 1).val = (j 1).val := by
  -- the start of the window on the row axis is the row number, on the column axis 0
  have hs0 : scatter_S50000x128_S850000x1_S850000x128_1_0_0_1.start j idx (0 : Fin 2)
      = (idx (ix2 (j 0) (0 : Fin 1))).toInt := by
    unfold ScatterDims.start
    rw [dif_pos (show (0 : Fin 2) ∈ scatter_S50000x128_S850000x1_S850000x128_1_0_0_1.scatterDimsToOperandDims from
      List.mem_singleton.mpr rfl)]
    have hsi : scatter_S50000x128_S850000x1_S850000x128_1_0_0_1.siIdx j
        ⟨List.idxOf (0 : Fin 2) scatter_S50000x128_S850000x1_S850000x128_1_0_0_1.scatterDimsToOperandDims,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hs1 : scatter_S50000x128_S850000x1_S850000x128_1_0_0_1.start j idx (1 : Fin 2) = 0 := by
    unfold ScatterDims.start
    rw [dif_neg (show (1 : Fin 2) ∉ scatter_S50000x128_S850000x1_S850000x128_1_0_0_1.scatterDimsToOperandDims by decide)]
  -- the window coordinate on the row axis (an inserted axis) is 0, on the column axis the update's column
  have hw0 : scatter_S50000x128_S850000x1_S850000x128_1_0_0_1.window j (0 : Fin 2) = 0 := by
    unfold ScatterDims.window
    rw [dif_neg (show (0 : Fin 2) ∉ scatter_S50000x128_S850000x1_S850000x128_1_0_0_1.sKept by decide)]
  have hw1 : scatter_S50000x128_S850000x1_S850000x128_1_0_0_1.window j (1 : Fin 2) = (j 1).val := by
    unfold ScatterDims.window
    rw [dif_pos (show (1 : Fin 2) ∈ scatter_S50000x128_S850000x1_S850000x128_1_0_0_1.sKept by decide)]
    rfl
  unfold ScatterDims.resultIdx? at h
  split at h
  · rename_i hall
    have hi := Option.some.inj h
    have h0 := hall (0 : Fin 2)
    have e0 := congrArg (fun f : S50000x128.Idx => (f (0 : Fin 2)).val) hi
    have e1 := congrArg (fun f : S50000x128.Idx => (f (1 : Fin 2)).val) hi
    simp only [hs0, hs1, hw0, hw1] at h0 e0 e1
    constructor
    · omega
    · omega
  · exact absurd h (by simp)

/-- An update of the 64-column row scatter that is not dropped lands in the row its row number names (read as a
    signed integer, which is then a natural number below 50000) and in its own column. -/
theorem scatter_lands_64 (idx : IVec S850000x1 32) (j : S850000x64.Idx) (i : S50000x64.Idx)
    (h : scatter_S50000x64_S850000x1_S850000x64_1_0_0_1.resultIdx? j idx = some i) :
    (idx (ix2 (j 0) (0 : Fin 1))).toInt = ((i 0).val : Int) ∧ (i 1).val = (j 1).val := by
  -- the start of the window on the row axis is the row number, on the column axis 0
  have hs0 : scatter_S50000x64_S850000x1_S850000x64_1_0_0_1.start j idx (0 : Fin 2)
      = (idx (ix2 (j 0) (0 : Fin 1))).toInt := by
    unfold ScatterDims.start
    rw [dif_pos (show (0 : Fin 2) ∈ scatter_S50000x64_S850000x1_S850000x64_1_0_0_1.scatterDimsToOperandDims from
      List.mem_singleton.mpr rfl)]
    have hsi : scatter_S50000x64_S850000x1_S850000x64_1_0_0_1.siIdx j
        ⟨List.idxOf (0 : Fin 2) scatter_S50000x64_S850000x1_S850000x64_1_0_0_1.scatterDimsToOperandDims,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hs1 : scatter_S50000x64_S850000x1_S850000x64_1_0_0_1.start j idx (1 : Fin 2) = 0 := by
    unfold ScatterDims.start
    rw [dif_neg (show (1 : Fin 2) ∉ scatter_S50000x64_S850000x1_S850000x64_1_0_0_1.scatterDimsToOperandDims by decide)]
  -- the window coordinate on the row axis (an inserted axis) is 0, on the column axis the update's column
  have hw0 : scatter_S50000x64_S850000x1_S850000x64_1_0_0_1.window j (0 : Fin 2) = 0 := by
    unfold ScatterDims.window
    rw [dif_neg (show (0 : Fin 2) ∉ scatter_S50000x64_S850000x1_S850000x64_1_0_0_1.sKept by decide)]
  have hw1 : scatter_S50000x64_S850000x1_S850000x64_1_0_0_1.window j (1 : Fin 2) = (j 1).val := by
    unfold ScatterDims.window
    rw [dif_pos (show (1 : Fin 2) ∈ scatter_S50000x64_S850000x1_S850000x64_1_0_0_1.sKept by decide)]
    rfl
  unfold ScatterDims.resultIdx? at h
  split at h
  · rename_i hall
    have hi := Option.some.inj h
    have h0 := hall (0 : Fin 2)
    have e0 := congrArg (fun f : S50000x64.Idx => (f (0 : Fin 2)).val) hi
    have e1 := congrArg (fun f : S50000x64.Idx => (f (1 : Fin 2)).val) hi
    simp only [hs0, hs1, hw0, hw1] at h0 e0 e1
    constructor
    · omega
    · omega
  · exact absurd h (by simp)

/-! ## A row gather read at one result index -/

section Gather
variable {α : Type}

/-- The 128-column row gather at result index `(r, c)`: the operand at the clamped row that row number `r` names,
    column `c`. -/
theorem gather_row_128 (x : S50000x128.Idx → α) (idx : IVec S850000x1 32) (j : S850000x128.Idx) :
    Host.gather gather_S50000x128_S850000x1_S850000x128_1_0_n_n_0_1_1128 x idx j
      = x (ix2 (clampRow (idx (ix2 (j 0) (0 : Fin 1)))) (j 1)) := by
  unfold Host.gather
  congr 1
  funext a
  refine Fin.ext ?_
  match a with
  | ⟨0, _⟩ =>
    -- the row axis: collapsed, named by the start index map — the clamped row number, no offset
    show gather_S50000x128_S850000x1_S850000x128_1_0_n_n_0_1_1128.start j idx (0 : Fin 2)
      + gather_S50000x128_S850000x1_S850000x128_1_0_n_n_0_1_1128.batchCoord j (0 : Fin 2)
      + gather_S50000x128_S850000x1_S850000x128_1_0_n_n_0_1_1128.offCoord j (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S850000x1_S850000x128_1_0_n_n_0_1_1128.startIndexMap from
      List.mem_singleton.mpr rfl)]
    have hsi : gather_S50000x128_S850000x1_S850000x128_1_0_n_n_0_1_1128.siIdx j
        ⟨List.idxOf (0 : Fin 2) gather_S50000x128_S850000x1_S850000x128_1_0_n_n_0_1_1128.startIndexMap,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    -- the column axis: kept, not named by the start index map — start 0, the result's own column as offset
    show gather_S50000x128_S850000x1_S850000x128_1_0_n_n_0_1_1128.start j idx (1 : Fin 2)
      + gather_S50000x128_S850000x1_S850000x128_1_0_n_n_0_1_1128.batchCoord j (1 : Fin 2)
      + gather_S50000x128_S850000x1_S850000x128_1_0_n_n_0_1_1128.offCoord j (1 : Fin 2) = _
    rw [GatherDims.batchCoord_eq_zero _ _ _ List.not_mem_nil]
    unfold GatherDims.start GatherDims.offCoord
    rw [dif_neg (show (1 : Fin 2) ∉ gather_S50000x128_S850000x1_S850000x128_1_0_n_n_0_1_1128.startIndexMap by decide),
      dif_pos (show (1 : Fin 2) ∈ gather_S50000x128_S850000x1_S850000x128_1_0_n_n_0_1_1128.sKept by decide)]
    simp only [Nat.add_zero, Nat.zero_add]
    rfl

/-- The 64-column row gather at result index `(r, c)`: the operand at the clamped row that row number `r` names,
    column `c`. -/
theorem gather_row_64 (x : S50000x64.Idx → α) (idx : IVec S850000x1 32) (j : S850000x64.Idx) :
    Host.gather gather_S50000x64_S850000x1_S850000x64_1_0_n_n_0_1_164 x idx j
      = x (ix2 (clampRow (idx (ix2 (j 0) (0 : Fin 1)))) (j 1)) := by
  unfold Host.gather
  congr 1
  funext a
  refine Fin.ext ?_
  match a with
  | ⟨0, _⟩ =>
    -- the row axis: collapsed, named by the start index map — the clamped row number, no offset
    show gather_S50000x64_S850000x1_S850000x64_1_0_n_n_0_1_164.start j idx (0 : Fin 2)
      + gather_S50000x64_S850000x1_S850000x64_1_0_n_n_0_1_164.batchCoord j (0 : Fin 2)
      + gather_S50000x64_S850000x1_S850000x64_1_0_n_n_0_1_164.offCoord j (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S850000x1_S850000x64_1_0_n_n_0_1_164.startIndexMap from
      List.mem_singleton.mpr rfl)]
    have hsi : gather_S50000x64_S850000x1_S850000x64_1_0_n_n_0_1_164.siIdx j
        ⟨List.idxOf (0 : Fin 2) gather_S50000x64_S850000x1_S850000x64_1_0_n_n_0_1_164.startIndexMap,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    -- the column axis: kept, not named by the start index map — start 0, the result's own column as offset
    show gather_S50000x64_S850000x1_S850000x64_1_0_n_n_0_1_164.start j idx (1 : Fin 2)
      + gather_S50000x64_S850000x1_S850000x64_1_0_n_n_0_1_164.batchCoord j (1 : Fin 2)
      + gather_S50000x64_S850000x1_S850000x64_1_0_n_n_0_1_164.offCoord j (1 : Fin 2) = _
    rw [GatherDims.batchCoord_eq_zero _ _ _ List.not_mem_nil]
    unfold GatherDims.start GatherDims.offCoord
    rw [dif_neg (show (1 : Fin 2) ∉ gather_S50000x64_S850000x1_S850000x64_1_0_n_n_0_1_164.startIndexMap by decide),
      dif_pos (show (1 : Fin 2) ∈ gather_S50000x64_S850000x1_S850000x64_1_0_n_n_0_1_164.sKept by decide)]
    simp only [Nat.add_zero, Nat.zero_add]
    rfl

/-- The entry gather at result index `r`: the flat operand at the clamped entry that row number `r` names. -/
theorem gather_entry (x : S50000.Idx → α) (idx : IVec S850000x1 32) (e : S850000.Idx) :
    Host.gather gather_S50000_S850000x1_S850000_n_0_n_n_0_1_1 x idx e
      = x (ix1 (clampRow (idx (ix2 (e 0) (0 : Fin 1))))) := by
  unfold Host.gather
  congr 1
  funext a
  obtain rfl : a = 0 := Subsingleton.elim _ _
  refine Fin.ext ?_
  -- the one operand axis: collapsed, named by the start index map — the clamped row number, no offset
  show gather_S50000_S850000x1_S850000_n_0_n_n_0_1_1.start e idx (0 : Fin 1)
    + gather_S50000_S850000x1_S850000_n_0_n_n_0_1_1.batchCoord e (0 : Fin 1)
    + gather_S50000_S850000x1_S850000_n_0_n_n_0_1_1.offCoord e (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S50000_S850000x1_S850000_n_0_n_n_0_1_1.startIndexMap from
    List.mem_singleton.mpr rfl)]
  have hsi : gather_S50000_S850000x1_S850000_n_0_n_n_0_1_1.siIdx e
      ⟨List.idxOf (0 : Fin 1) gather_S50000_S850000x1_S850000_n_0_n_n_0_1_1.startIndexMap,
        List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

end Gather

/-! ## Row numbers that read as natural numbers -/

/-- A row number that reads, signed, as a natural number below 50000 is its own clamp. -/
theorem clampRow_of_toInt (b : BitVec 32) (n : Nat) (hn : n < 50000) (h : b.toInt = (n : Int)) :
    (clampRow b).val = n := by
  show min b.toInt.toNat 49999 = n
  omega

/-- A row number that reads, signed, as a natural number is not negative, so the wrap-around of negative row
    numbers (add 50000 to a number below zero) leaves it alone. -/
theorem wrap_of_nonneg (b : BitVec 32) (n : Nat) (h : b.toInt = (n : Int)) :
    Scalar.select (IntOp.cmpi .slt b 0#32) (IntOp.addi b 50000#32) b = b := by
  -- the signed comparison with zero fails …
  have hslt : b.slt 0#32 = false := by
    have h0 : (0#32 : BitVec 32).toInt = 0 := BitVec.toInt_zero
    simp only [BitVec.slt, h, h0]
    exact decide_eq_false (by omega)
  -- … so the condition's bit is 0 and the select takes its second operand
  have hc : IntOp.cmpi .slt b 0#32 = 0#1 := by
    show BitVec.ofBool (b.slt 0#32) = 0#1
    rw [hslt]
    rfl
  rw [hc]
  exact select_zero _ _

end Cert.ReferenceIdeal.Index

end
-- ==== Proof.ScaleLaw.lean ====
/-
  Factoring a per-destination scale out of a scatter-add, on the extended reals.

  A scatter-add's element `i` is the operand's element plus the sum of the updates landing on `i`. If every update
  landing on `i` carries a common factor `d i` that is a nonnegative real — neither infinity —, the factor comes out
  of the sum: the extended reals distribute over a sum exactly when the common factor is finite and nonnegative (a
  sum holding `+∞` and `-∞` is `-∞`, and so is its product with such a factor unless the factor is `0`, where both
  sides are `0`). The reciprocal square root of a positive extended real is such a factor: a positive real for a
  positive real, `0` at `+∞`.
-/
import Idealize.ShloMosaic.PureOps.Ideal
import Idealize.ShloMosaic.PureOps.Ideal.Laws
import Idealize.ShloMosaic.Lib.ValueIdx

noncomputable section

namespace Cert.ScaleLaw

open Idealize.ShloMosaic

/-- A finite sum times a nonnegative finite factor is the sum of the products. -/
theorem sum_mul_of_nonneg_of_ne_top {ι : Type} (s : Finset ι) (f : ι → EReal) {x : EReal} (hx : 0 ≤ x) (hx' : x ≠ ⊤) :
    (∑ j ∈ s, f j) * x = ∑ j ∈ s, f j * x := by
  classical
  induction s using Finset.induction_on with
  | empty => simp
  | insert a s ha ih =>
    rw [Finset.sum_insert ha, Finset.sum_insert ha, EReal.right_distrib_of_nonneg_of_ne_top hx hx', ih]

/-- THE LAW. Two scatter-adds into a zero operand at the same indices, the updates of the first being those of the
    second times a factor that depends only on the element the update lands on (`h`), that factor a nonnegative
    real (`hd`): the first is the second scaled, element by element. -/
theorem scatterAdd_scale {s si su : Shape} (d : ScatterDims s si su) {w : Nat} (z : s.Idx → EReal) (idx : IVec si w)
    (u₁ u₂ : su.Idx → EReal) (dd : s.Idx → EReal) (hz : ∀ i, z i = 0)
    (hd : ∀ i, 0 ≤ dd i ∧ dd i ≠ ⊤)
    (h : ∀ j i, d.resultIdx? j idx = some i → u₁ j = u₂ j * dd i) (i : s.Idx) :
    Ideal.hostScatterAdd d z idx u₁ i = Ideal.hostScatterAdd d z idx u₂ i * dd i := by
  unfold Ideal.hostScatterAdd
  rw [hz i, zero_add, zero_add, sum_mul_of_nonneg_of_ne_top _ _ (hd i).1 (hd i).2]
  exact Finset.sum_congr rfl fun j hj => h j i (Finset.mem_filter.mp hj).2

/-- The reciprocal square root of a positive extended real is a nonnegative real. -/
theorem rsqrt_nonneg_ne_top {y : EReal} (hy : 0 < y) : 0 ≤ Ideal.rsqrt y ∧ Ideal.rsqrt y ≠ ⊤ := by
  induction y using EReal.rec with
  | bot => exact absurd hy (by simp)
  | top => exact ⟨by simp, by simp⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- The normalisation coefficient of a node: the reciprocal square root of its degree where the degree is
    positive, zero elsewhere. Whatever the degree, a nonnegative real. -/
theorem coeff_nonneg_ne_top (y z z' : EReal) (hz : z = 0) (hz' : z' = 0) :
    0 ≤ Scalar.select (Ideal.cmp .ogt y z) (Ideal.rsqrt y) z'
      ∧ Scalar.select (Ideal.cmp .ogt y z) (Ideal.rsqrt y) z' ≠ ⊤ := by
  subst hz hz'
  by_cases hy : (0 : EReal) < y
  · have hc : Ideal.cmp .ogt y 0 = 1#1 := by simp [Ideal.cmp, hy]
    rw [hc, ValueIdx.select_one]
    exact rsqrt_nonneg_ne_top hy
  · have hc : Ideal.cmp .ogt y 0 = 0#1 := by simp [Ideal.cmp, hy]
    rw [hc, ValueIdx.select_zero]
    exact ⟨le_rfl, EReal.zero_ne_top⟩

end Cert.ScaleLaw

end
-- ==== Proof.AggLaw.lean ====
/-
  The two aggregations agree up to the destination's coefficient.

  An edge e sends row `src e` of a node array to row `dst e`. The reference scales the gathered row by the edge's
  coefficient, `d (src e) * 1 * d (dst e)`, and then sums into the destination rows; the other program scales every
  node's row by the node's coefficient `d` first, gathers, and sums. An update that is not dropped lands on the row
  `dst e` names, so the reference's update is the other's times `d` at the row it lands on. That common factor is a
  nonnegative real, and such a factor comes out of the sum.
-/
import proofs.«177192_j81406810129168_2_alg».proof.Proof.Terms
import proofs.«177192_j81406810129168_2_alg».proof.Proof.RefIndex
import proofs.«177192_j81406810129168_2_alg».proof.Proof.ScaleLaw
import Idealize.ShloMosaic.Lib.ValueIdx
import Idealize.ShloMosaic.Lib.IdealHost
import Idealize.ShloMosaic.Lib.Pipeline.Value
import Idealize.ShloMosaic.PureOps.Ideal.Laws

noncomputable section

namespace Cert.Gcn

open Cert.ReferenceIdeal Cert.ReferenceIdeal.Index Idealize.ShloMosaic Idealize.ShloMosaic.ValueIdx

/-! ## The broadcasts, the constants and the wrap-around, read at an index -/

/-- A per-edge array as a one-column array reads, at `(a, 0)`, the array at `a`. -/
theorem col_apply {α : Type} (v : S850000.Idx → α) (a : Fin 850000) (z : Fin 1) : col v (ix2 a z) = v (ix1 a) := by
  unfold col
  refine broadcastInDim_apply _ _ v (ix2 a z) (ix1 a) ?_
  intro b
  match b with
  | ⟨0, _⟩ =>
    show a.val = if (850000 : ℕ) = 1 then 0 else a.val
    rw [if_neg (by omega)]

/-- One per edge reads the extended real one. -/
theorem ones_apply (e : S850000.Idx) : ones e = 1 := by
  show Ideal.ofBits .f32 0x3F800000#32 = 1
  exact Ideal.ofBits_one_f32

/-- The wrap-around at an edge: 50000 added to the row number when it is negative. -/
theorem wrap_apply (v : IVec S850000 32) (e : S850000.Idx) :
    wrap v e = Scalar.select (IntOp.cmpi .slt (v e) 0#32) (IntOp.addi (v e) 50000#32) (v e) := rfl

/-- A row number that reads, signed, as a natural number is left alone by the wrap-around. -/
theorem wrap_apply_of_nonneg (v : IVec S850000 32) (e : S850000.Idx) (n : Nat) (hv : (v e).toInt = (n : Int)) :
    wrap v e = v e := by
  rw [wrap_apply]
  exact wrap_of_nonneg (v e) n hv

/-- The edge's coefficient at edge `a`: the node coefficient at the source row (wrapped, clamped), times one, times the
    node coefficient at the destination row (wrapped, clamped). -/
theorem edgeCoeff_apply (d : FVec Ideal S50000 .f32) (s t : IVec S850000 32) (a : Fin 850000) :
    edgeCoeff d s t (ix1 a)
      = d (ix1 (clampRow (wrap s (ix1 a)))) * 1 * d (ix1 (clampRow (wrap t (ix1 a)))) := by
  unfold edgeCoeff
  rw [mulf_apply, mulf_apply, gather_entry, gather_entry, ones_apply]
  show d (ix1 (clampRow (col (wrap s) (ix2 a (0 : Fin 1))))) * 1 * d (ix1 (clampRow (col (wrap t) (ix2 a (0 : Fin 1))))) = _
  rw [col_apply, col_apply]

/-! ## 128 columns -/

/-- A per-edge array spread over 128 columns reads, at `(a, c)`, the array at `a`. -/
theorem edgeSpread128_apply {α : Type} (v : S850000.Idx → α) (a : Fin 850000) (c : Fin 128) :
    broadcastInDim S850000x128 ![0, 1] Facts₀.bcast_S850000x1_S850000x128_0_1 (col v) (ix2 a c) = v (ix1 a) := by
  rw [← col_apply v a (0 : Fin 1)]
  refine broadcastInDim_apply _ _ (col v) (ix2 a c) (ix2 a (0 : Fin 1)) ?_
  intro b
  match b with
  | ⟨0, _⟩ =>
    show a.val = if (850000 : ℕ) = 1 then 0 else a.val
    rw [if_neg (by omega)]
  | ⟨1, _⟩ =>
    show (0 : ℕ) = if (1 : ℕ) = 1 then 0 else c.val
    rw [if_pos rfl]

/-- A per-node array spread over 128 columns reads, at `(r, c)`, the array at `r`. -/
theorem spread128_apply (d : FVec Ideal S50000 .f32) (r : Fin 50000) (c : Fin 128) :
    spread128 d (ix2 r c) = d (ix1 r) := by
  unfold spread128
  refine (broadcastInDim_apply _ _ _ (ix2 r c) (ix2 r (0 : Fin 1)) ?_).trans
    (broadcastInDim_apply _ _ d (ix2 r (0 : Fin 1)) (ix1 r) ?_)
  · intro b
    match b with
    | ⟨0, _⟩ =>
      show r.val = if (50000 : ℕ) = 1 then 0 else r.val
      rw [if_neg (by omega)]
    | ⟨1, _⟩ =>
      show (0 : ℕ) = if (1 : ℕ) = 1 then 0 else c.val
      rw [if_pos rfl]
  · intro b
    match b with
    | ⟨0, _⟩ =>
      show r.val = if (50000 : ℕ) = 1 then 0 else r.val
      rw [if_neg (by omega)]

/-- THE UPDATES. At edge `a` and column `c`, when the destination row number reads as the natural number `n` below
    50000: the reference's update is the other program's update times the node coefficient at row `n`. -/
theorem update_128 (h : FVec Ideal S50000x128 .f32) (d : FVec Ideal S50000 .f32) (s t : IVec S850000 32)
    (a : Fin 850000) (c : Fin 128) (n : Nat) (hn : n < 50000) (ht : (t (ix1 a)).toInt = (n : Int)) :
    mulf (Host.gather gather_S50000x128_S850000x1_S850000x128_1_0_n_n_0_1_1128 h (col (wrap s)))
        (broadcastInDim S850000x128 ![0, 1] Facts₀.bcast_S850000x1_S850000x128_0_1 (col (edgeCoeff d s t))) (ix2 a c)
      = Host.gather gather_S50000x128_S850000x1_S850000x128_1_0_n_n_0_1_1128 (mulf h (spread128 d)) (col (wrap s)) (ix2 a c)
          * d (ix1 (n := 50000) ⟨n, hn⟩) := by
  -- the destination's clamped row is row `n`
  have hR' : clampRow (wrap t (ix1 a)) = ⟨n, hn⟩ := by
    rw [wrap_apply_of_nonneg t (ix1 a) n ht]
    exact Fin.ext (clampRow_of_toInt _ n hn ht)
  rw [mulf_apply, gather_row_128, gather_row_128, edgeSpread128_apply, edgeCoeff_apply, mulf_apply]
  show h (ix2 (clampRow (col (wrap s) (ix2 a (0 : Fin 1)))) c)
      * (d (ix1 (clampRow (wrap s (ix1 a)))) * 1 * d (ix1 (clampRow (wrap t (ix1 a)))))
    = h (ix2 (clampRow (col (wrap s) (ix2 a (0 : Fin 1)))) c)
        * spread128 d (ix2 (clampRow (col (wrap s) (ix2 a (0 : Fin 1)))) c) * d (ix1 (n := 50000) ⟨n, hn⟩)
  rw [spread128_apply, col_apply, hR', mul_one, mul_assoc]

/-- An update of the row scatter at the destination row numbers that lands on `i`: the reference's is the other
    program's times the node coefficient at the row of `i`. -/
theorem landing_128 (h : FVec Ideal S50000x128 .f32) (d : FVec Ideal S50000 .f32) (s t : IVec S850000 32)
    (j : S850000x128.Idx) (i : S50000x128.Idx)
    (hres : scatter_S50000x128_S850000x1_S850000x128_1_0_0_1.resultIdx? j (col t) = some i) :
    mulf (Host.gather gather_S50000x128_S850000x1_S850000x128_1_0_n_n_0_1_1128 h (col (wrap s)))
        (broadcastInDim S850000x128 ![0, 1] Facts₀.bcast_S850000x1_S850000x128_0_1 (col (edgeCoeff d s t))) j
      = Host.gather gather_S50000x128_S850000x1_S850000x128_1_0_n_n_0_1_1128 (mulf h (spread128 d)) (col (wrap s)) j
          * d (ix1 (n := 50000) ⟨(i 0).val, (i 0).isLt⟩) := by
  -- the destination row number of the update reads as the row of i
  obtain ⟨hrow, _⟩ := scatter_lands_128 (col t) j i hres
  obtain ⟨a, c, rfl⟩ : ∃ (a : Fin 850000) (c : Fin 128), j = ix2 a c := ⟨j 0, j 1, eq_ix2 j⟩
  have ht : (t (ix1 a)).toInt = ((i 0).val : Int) := by
    rw [← col_apply t a (0 : Fin 1)]
    exact hrow
  exact update_128 h d s t a c (i 0).val (i 0).isLt ht

/-- The reference's 128-column aggregation is the exact scatter-add of its updates into the zero array. -/
theorem aggEdge128_eq (h : FVec Ideal S50000x128 .f32) (d : FVec Ideal S50000 .f32) (s t : IVec S850000 32) :
    aggEdge128 h d s t
      = Ideal.hostScatterAdd scatter_S50000x128_S850000x1_S850000x128_1_0_0_1
          (broadcastInDim S50000x128 ![] Facts₀.bcast_S_S50000x128 (constant (F := Ideal) S_ .f32 0x00000000#32)) (col t)
          (mulf (Host.gather gather_S50000x128_S850000x1_S850000x128_1_0_n_n_0_1_1128 h (col (wrap s)))
            (broadcastInDim S850000x128 ![0, 1] Facts₀.bcast_S850000x1_S850000x128_0_1 (col (edgeCoeff d s t)))) := rfl

/-- The other program's 128-column aggregation is the exact scatter-add of its updates into the zero array. -/
theorem aggNode128_eq (h : FVec Ideal S50000x128 .f32) (d : FVec Ideal S50000 .f32) (s t : IVec S850000 32) :
    aggNode128 h d s t
      = Ideal.hostScatterAdd scatter_S50000x128_S850000x1_S850000x128_1_0_0_1
          (broadcastInDim S50000x128 ![] Facts₀.bcast_S_S50000x128 (constant (F := Ideal) S_ .f32 0x00000000#32)) (col t)
          (Host.gather gather_S50000x128_S850000x1_S850000x128_1_0_n_n_0_1_1128 (mulf h (spread128 d)) (col (wrap s))) := rfl

/-- The 128-column array summed into reads zero everywhere. -/
theorem zeros128_apply (i : S50000x128.Idx) :
    broadcastInDim S50000x128 ![] Facts₀.bcast_S_S50000x128 (constant (F := Ideal) S_ .f32 0x00000000#32) i = 0 := by
  rw [broadcastInDim_scalar_apply, constant_apply]
  exact Ideal.ofBits_zero_f32

/-- THE AGGREGATIONS, 128 columns: the reference's is the other program's scaled, row by row, by the node coefficient.
    Both sum into a zero array at the same destination row numbers; an update that is not dropped lands on the row
    its destination row number names, where the two updates differ by that row's coefficient, a nonnegative real. -/
theorem agg_scale_128 (h : FVec Ideal S50000x128 .f32) (d : FVec Ideal S50000 .f32) (s t : IVec S850000 32)
    (hd : ∀ r, 0 ≤ d r ∧ d r ≠ ⊤) (i : S50000x128.Idx) :
    aggEdge128 h d s t i = aggNode128 h d s t i * d (ix1 (n := 50000) ⟨(i 0).val, (i 0).isLt⟩) := by
  rw [aggEdge128_eq, aggNode128_eq]
  exact Cert.ScaleLaw.scatterAdd_scale scatter_S50000x128_S850000x1_S850000x128_1_0_0_1 _ (col t) _ _
    (fun i' : S50000x128.Idx => d (ix1 (n := 50000) ⟨(i' 0).val, (i' 0).isLt⟩))
    zeros128_apply (fun i' => hd _) (fun j i' hres => landing_128 h d s t j i' hres) i

/-! ## 64 columns -/

/-- A per-edge array spread over 64 columns reads, at `(a, c)`, the array at `a`. -/
theorem edgeSpread64_apply {α : Type} (v : S850000.Idx → α) (a : Fin 850000) (c : Fin 64) :
    broadcastInDim S850000x64 ![0, 1] Facts₀.bcast_S850000x1_S850000x64_0_1 (col v) (ix2 a c) = v (ix1 a) := by
  rw [← col_apply v a (0 : Fin 1)]
  refine broadcastInDim_apply _ _ (col v) (ix2 a c) (ix2 a (0 : Fin 1)) ?_
  intro b
  match b with
  | ⟨0, _⟩ =>
    show a.val = if (850000 : ℕ) = 1 then 0 else a.val
    rw [if_neg (by omega)]
  | ⟨1, _⟩ =>
    show (0 : ℕ) = if (1 : ℕ) = 1 then 0 else c.val
    rw [if_pos rfl]

/-- A per-node array spread over 64 columns reads, at `(r, c)`, the array at `r`. -/
theorem spread64_apply (d : FVec Ideal S50000 .f32) (r : Fin 50000) (c : Fin 64) :
    spread64 d (ix2 r c) = d (ix1 r) := by
  unfold spread64
  refine (broadcastInDim_apply _ _ _ (ix2 r c) (ix2 r (0 : Fin 1)) ?_).trans
    (broadcastInDim_apply _ _ d (ix2 r (0 : Fin 1)) (ix1 r) ?_)
  · intro b
    match b with
    | ⟨0, _⟩ =>
      show r.val = if (50000 : ℕ) = 1 then 0 else r.val
      rw [if_neg (by omega)]
    | ⟨1, _⟩ =>
      show (0 : ℕ) = if (1 : ℕ) = 1 then 0 else c.val
      rw [if_pos rfl]
  · intro b
    match b with
    | ⟨0, _⟩ =>
      show r.val = if (50000 : ℕ) = 1 then 0 else r.val
      rw [if_neg (by omega)]

/-- THE UPDATES. At edge `a` and column `c`, when the destination row number reads as the natural number `n` below
    50000: the reference's update is the other program's update times the node coefficient at row `n`. -/
theorem update_64 (h : FVec Ideal S50000x64 .f32) (d : FVec Ideal S50000 .f32) (s t : IVec S850000 32)
    (a : Fin 850000) (c : Fin 64) (n : Nat) (hn : n < 50000) (ht : (t (ix1 a)).toInt = (n : Int)) :
    mulf (Host.gather gather_S50000x64_S850000x1_S850000x64_1_0_n_n_0_1_164 h (col (wrap s)))
        (broadcastInDim S850000x64 ![0, 1] Facts₀.bcast_S850000x1_S850000x64_0_1 (col (edgeCoeff d s t))) (ix2 a c)
      = Host.gather gather_S50000x64_S850000x1_S850000x64_1_0_n_n_0_1_164 (mulf h (spread64 d)) (col (wrap s)) (ix2 a c)
          * d (ix1 (n := 50000) ⟨n, hn⟩) := by
  -- the destination's clamped row is row `n`
  have hR' : clampRow (wrap t (ix1 a)) = ⟨n, hn⟩ := by
    rw [wrap_apply_of_nonneg t (ix1 a) n ht]
    exact Fin.ext (clampRow_of_toInt _ n hn ht)
  rw [mulf_apply, gather_row_64, gather_row_64, edgeSpread64_apply, edgeCoeff_apply, mulf_apply]
  show h (ix2 (clampRow (col (wrap s) (ix2 a (0 : Fin 1)))) c)
      * (d (ix1 (clampRow (wrap s (ix1 a)))) * 1 * d (ix1 (clampRow (wrap t (ix1 a)))))
    = h (ix2 (clampRow (col (wrap s) (ix2 a (0 : Fin 1)))) c)
        * spread64 d (ix2 (clampRow (col (wrap s) (ix2 a (0 : Fin 1)))) c) * d (ix1 (n := 50000) ⟨n, hn⟩)
  rw [spread64_apply, col_apply, hR', mul_one, mul_assoc]

/-- An update of the row scatter at the destination row numbers that lands on `i`: the reference's is the other
    program's times the node coefficient at the row of `i`. -/
theorem landing_64 (h : FVec Ideal S50000x64 .f32) (d : FVec Ideal S50000 .f32) (s t : IVec S850000 32)
    (j : S850000x64.Idx) (i : S50000x64.Idx)
    (hres : scatter_S50000x64_S850000x1_S850000x64_1_0_0_1.resultIdx? j (col t) = some i) :
    mulf (Host.gather gather_S50000x64_S850000x1_S850000x64_1_0_n_n_0_1_164 h (col (wrap s)))
        (broadcastInDim S850000x64 ![0, 1] Facts₀.bcast_S850000x1_S850000x64_0_1 (col (edgeCoeff d s t))) j
      = Host.gather gather_S50000x64_S850000x1_S850000x64_1_0_n_n_0_1_164 (mulf h (spread64 d)) (col (wrap s)) j
          * d (ix1 (n := 50000) ⟨(i 0).val, (i 0).isLt⟩) := by
  -- the destination row number of the update reads as the row of i
  obtain ⟨hrow, _⟩ := scatter_lands_64 (col t) j i hres
  obtain ⟨a, c, rfl⟩ : ∃ (a : Fin 850000) (c : Fin 64), j = ix2 a c := ⟨j 0, j 1, eq_ix2 j⟩
  have ht : (t (ix1 a)).toInt = ((i 0).val : Int) := by
    rw [← col_apply t a (0 : Fin 1)]
    exact hrow
  exact update_64 h d s t a c (i 0).val (i 0).isLt ht

/-- The reference's 64-column aggregation is the exact scatter-add of its updates into the zero array. -/
theorem aggEdge64_eq (h : FVec Ideal S50000x64 .f32) (d : FVec Ideal S50000 .f32) (s t : IVec S850000 32) :
    aggEdge64 h d s t
      = Ideal.hostScatterAdd scatter_S50000x64_S850000x1_S850000x64_1_0_0_1
          (broadcastInDim S50000x64 ![] Facts₀.bcast_S_S50000x64 (constant (F := Ideal) S_ .f32 0x00000000#32)) (col t)
          (mulf (Host.gather gather_S50000x64_S850000x1_S850000x64_1_0_n_n_0_1_164 h (col (wrap s)))
            (broadcastInDim S850000x64 ![0, 1] Facts₀.bcast_S850000x1_S850000x64_0_1 (col (edgeCoeff d s t)))) := rfl

/-- The other program's 64-column aggregation is the exact scatter-add of its updates into the zero array. -/
theorem aggNode64_eq (h : FVec Ideal S50000x64 .f32) (d : FVec Ideal S50000 .f32) (s t : IVec S850000 32) :
    aggNode64 h d s t
      = Ideal.hostScatterAdd scatter_S50000x64_S850000x1_S850000x64_1_0_0_1
          (broadcastInDim S50000x64 ![] Facts₀.bcast_S_S50000x64 (constant (F := Ideal) S_ .f32 0x00000000#32)) (col t)
          (Host.gather gather_S50000x64_S850000x1_S850000x64_1_0_n_n_0_1_164 (mulf h (spread64 d)) (col (wrap s))) := rfl

/-- The 64-column array summed into reads zero everywhere. -/
theorem zeros64_apply (i : S50000x64.Idx) :
    broadcastInDim S50000x64 ![] Facts₀.bcast_S_S50000x64 (constant (F := Ideal) S_ .f32 0x00000000#32) i = 0 := by
  rw [broadcastInDim_scalar_apply, constant_apply]
  exact Ideal.ofBits_zero_f32

/-- THE AGGREGATIONS, 64 columns: the reference's is the other program's scaled, row by row, by the node coefficient.
    Both sum into a zero array at the same destination row numbers; an update that is not dropped lands on the row
    its destination row number names, where the two updates differ by that row's coefficient, a nonnegative real. -/
theorem agg_scale_64 (h : FVec Ideal S50000x64 .f32) (d : FVec Ideal S50000 .f32) (s t : IVec S850000 32)
    (hd : ∀ r, 0 ≤ d r ∧ d r ≠ ⊤) (i : S50000x64.Idx) :
    aggEdge64 h d s t i = aggNode64 h d s t i * d (ix1 (n := 50000) ⟨(i 0).val, (i 0).isLt⟩) := by
  rw [aggEdge64_eq, aggNode64_eq]
  exact Cert.ScaleLaw.scatterAdd_scale scatter_S50000x64_S850000x1_S850000x64_1_0_0_1 _ (col t) _ _
    (fun i' : S50000x64.Idx => d (ix1 (n := 50000) ⟨(i' 0).val, (i' 0).isLt⟩))
    zeros64_apply (fun i' => hd _) (fun j i' hres => landing_64 h d s t j i' hres) i

end Cert.Gcn

end
-- ==== Proof.RefDense.lean ====
/-
  The reference's two matrix products are the dense transforms of the specification.

  At the ideal instance the host's `dot_general` of a [50000, 128] array with a [128, n] matrix is, at entry
  (r, c), the sum over the contracted axis of the products of the row's entry k and the matrix's entry (k, c).
-/
import proofs.«177192_j81406810129168_2_alg».proof.Proof.Gen.ReferenceIdeal
import proofs.«177192_j81406810129168_2_alg».proof.Proof.Spec
import Idealize.ShloMosaic.Lib.ValueIdx
import Idealize.ShloMosaic.PureOps.Ideal.Laws

noncomputable section

namespace Cert.ReferenceIdeal.Dense

open Cert.ReferenceIdeal Cert.Spec Idealize.ShloMosaic Idealize.ShloMosaic.ValueIdx

/-- The left operand's index at output entry `j` and contraction index `q`: row `j 0`. -/
theorem lhs_row1 (j : S50000x128.Idx) (q : dot_S50000x128_S128x128_S50000x128_1_0_0_1_n_n.contr.Idx) : (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
/-- The right operand's index at output entry `j` and contraction index `q`: column `j 1`. -/
theorem rhs_col1 (j : S50000x128.Idx) (q : dot_S50000x128_S128x128_S50000x128_1_0_0_1_n_n.contr.Idx) : (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The host's product of the whole arrays is the dense transform of the specification, entry by entry. -/
theorem dot1_eq (x : FVec Ideal S50000x128 .f32) (w : FVec Ideal S128x128 .f32) :
    Host.dotGeneral dot_S50000x128_S128x128_S50000x128_1_0_0_1_n_n none x w = dense1 x w := by
  funext i
  simp only [Host.dotGeneral]
  rw [Ideal.dotGeneral_apply, ← Equiv.sum_comp (contrEquiv1 dot_S50000x128_S128x128_S50000x128_1_0_0_1_n_n 128 rfl rfl).symm]
  unfold dense1
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (n0 := 50000) ⟨(i 0).val, (i 0).isLt⟩ k :=
    funext fun a => Fin.ext (by
      match a with
      | ⟨0, _⟩ => exact lhs_row1 _ _
      | ⟨1, _⟩ => exact (dot_S50000x128_S128x128_S50000x128_1_0_0_1_n_n.lhsIdx_val_of_single rfl i _).trans hk)
  have er : dot_S50000x128_S128x128_S50000x128_1_0_0_1_n_n.rhsIdx i ((contrEquiv1 dot_S50000x128_S128x128_S50000x128_1_0_0_1_n_n 128 rfl rfl).symm k) = ix2 k (n1 := 128) ⟨(i 1).val, (i 1).isLt⟩ :=
    funext fun a => Fin.ext (by
      match a with
      | ⟨0, _⟩ => exact (dot_S50000x128_S128x128_S50000x128_1_0_0_1_n_n.rhsIdx_val_of_single rfl i _).trans hk
      | ⟨1, _⟩ => exact rhs_col1 _ _)
  rw [el, er]

/-- The left operand's index at output entry `j` and contraction index `q`: row `j 0`. -/
theorem lhs_row2 (j : S50000x64.Idx) (q : dot_S50000x128_S128x64_S50000x64_1_0_0_1_n_n.contr.Idx) : (dot_S50000x128_S128x64_S50000x64_1_0_0_1_n_n.lhsIdx j q 0).val = (j 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl
/-- The right operand's index at output entry `j` and contraction index `q`: column `j 1`. -/
theorem rhs_col2 (j : S50000x64.Idx) (q : dot_S50000x128_S128x64_S50000x64_1_0_0_1_n_n.contr.Idx) : (dot_S50000x128_S128x64_S50000x64_1_0_0_1_n_n.rhsIdx j q 1).val = (j 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- The host's product of the whole arrays is the dense transform of the specification, entry by entry. -/
theorem dot2_eq (x : FVec Ideal S50000x128 .f32) (w : FVec Ideal S128x64 .f32) :
    Host.dotGeneral dot_S50000x128_S128x64_S50000x64_1_0_0_1_n_n none x w = dense2 x w := by
  funext i
  simp only [Host.dotGeneral]
  rw [Ideal.dotGeneral_apply, ← Equiv.sum_comp (contrEquiv1 dot_S50000x128_S128x64_S50000x64_1_0_0_1_n_n 128 rfl rfl).symm]
  unfold dense2
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx i ((contrEquiv1 dot_S50000x128_S128x64_S50000x64_1_0_0_1_n_n 128 rfl rfl).symm k) = ix2 (n0 := 50000) ⟨(i 0).val, (i 0).isLt⟩ k :=
    funext fun a => Fin.ext (by
      match a with
      | ⟨0, _⟩ => exact lhs_row2 _ _
      | ⟨1, _⟩ => exact (dot_S50000x128_S128x64_S50000x64_1_0_0_1_n_n.lhsIdx_val_of_single rfl i _).trans hk)
  have er : dot_S50000x128_S128x64_S50000x64_1_0_0_1_n_n.rhsIdx i ((contrEquiv1 dot_S50000x128_S128x64_S50000x64_1_0_0_1_n_n 128 rfl rfl).symm k) = ix2 k (n1 := 64) ⟨(i 1).val, (i 1).isLt⟩ :=
    funext fun a => Fin.ext (by
      match a with
      | ⟨0, _⟩ => exact (dot_S50000x128_S128x64_S50000x64_1_0_0_1_n_n.rhsIdx_val_of_single rfl i _).trans hk
      | ⟨1, _⟩ => exact rhs_col2 _ _)
  rw [el, er]

end Cert.ReferenceIdeal.Dense

end
-- ==== Proof.Bridge.lean ====
/-
  The two results are one function of the six arguments.

  The reference scales each edge's contribution by the product of the endpoint coefficients; the kernel scales the
  node rows by the source coefficient before gathering and the sums by the destination coefficient after. Every
  coefficient is a nonnegative real (the reciprocal square root of a positive degree, or zero), so the destination's
  coefficient comes out of each destination's sum, and the two aggregations agree entry by entry, in both layers.
  Between the layers both add the bias and cut off at zero, and both multiply by the same weight matrices: the
  reference on the host, the kernel block by block.
-/
import proofs.«177192_j81406810129168_2_alg».proof.Proof.Terms
import proofs.«177192_j81406810129168_2_alg».proof.Proof.AggLaw
import proofs.«177192_j81406810129168_2_alg».proof.Proof.RefDense
import proofs.«177192_j81406810129168_2_alg».proof.Proof.ScaleLaw
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Gcn

open Cert.ReferenceIdeal Cert.Spec Idealize.ShloMosaic Idealize.ShloMosaic.ValueIdx
open Cert.ReferenceIdeal.Facts₀

/-- Every node's coefficient is a nonnegative real. -/
theorem coeff_nonneg_ne_top (x1 : IVec S2x800000 32) (r : S50000.Idx) : 0 ≤ coeff x1 r ∧ coeff x1 r ≠ ⊤ := by
  have hz : broadcastInDim S50000 ![] bcast_S_S50000 (constant (F := Ideal) S_ .f32 0x00000000#32) r = 0 := by
    rw [broadcastInDim_scalar_apply, constant_apply]
    exact Ideal.ofBits_zero_f32
  have hz' : broadcastInDim S50000 ![] bcast_S_S50000 (id (constant (F := Ideal) S_ .f32 0x00000000#32)) r = 0 := by
    rw [broadcastInDim_scalar_apply, id_eq, constant_apply]
    exact Ideal.ofBits_zero_f32
  unfold coeff
  generalize degree x1 = D
  have key := Cert.ScaleLaw.coeff_nonneg_ne_top (D r) _ _ hz hz'
  exact key

/-- A per-node array spread over 64 columns reads, at (r, c), the node's entry. -/
theorem spread64_at (d : FVec Ideal S50000 .f32) (i : S50000x64.Idx) :
    spread64 d i = d (ix1 (n := 50000) ⟨(i 0).val, (i 0).isLt⟩) := by
  unfold spread64
  rw [broadcastInDim_apply (k := ix2 (n0 := 50000) ⟨(i 0).val, (i 0).isLt⟩ (0 : Fin 1))
        (hk := fun a => by match a with | ⟨0, _⟩ => rfl | ⟨1, _⟩ => rfl),
    broadcastInDim_apply (k := ix1 (n := 50000) ⟨(i 0).val, (i 0).isLt⟩)
        (hk := fun a => by match a with | ⟨0, _⟩ => rfl)]

/-- The bias spread over the rows reads, at (r, c), the bias's entry c. -/
theorem biasRows128_at (b : FVec Ideal S128 .f32) (i : S50000x128.Idx) :
    biasRows128 b i = b (ix1 (n := 128) ⟨(i 1).val, (i 1).isLt⟩) := by
  unfold biasRows128
  rw [broadcastInDim_apply (k := ix2 (0 : Fin 1) (n1 := 128) ⟨(i 1).val, (i 1).isLt⟩)
        (hk := fun a => by match a with | ⟨0, _⟩ => rfl | ⟨1, _⟩ => rfl),
    broadcastInDim_apply (k := ix1 (n := 128) ⟨(i 1).val, (i 1).isLt⟩)
        (hk := fun a => by match a with | ⟨0, _⟩ => rfl)]

/-- The coefficients as a one-column array read, at (r, 0), the node's coefficient. -/
theorem coeffCol_at (d : FVec Ideal S50000 .f32) (h : S50000.ShapeCasts Cert.KernelIdeal.S50000x1) (r : Fin 50000) :
    shapeCast Cert.KernelIdeal.S50000x1 d h (ix2 r (0 : Fin 1)) = d (ix1 r) :=
  shapeCast_apply d h _ _ (by
    rw [Shape.rowMajor_val_one, Shape.rowMajor_val_two]
    show r.val = r.val * 1 + 0
    omega)

/-- The activation between the layers: the reference's (aggregate with edge coefficients, plus bias, cut off at zero)
    is the kernel's (aggregate with node coefficients scaled by the coefficient column, plus the bias row, cut off). -/
theorem act_eq (H : FVec Ideal S50000x128 .f32) (x1 : IVec S2x800000 32) (x3 : FVec Ideal S128 .f32) :
    maximumf (addf (aggEdge128 H (coeff x1) (srcRows x1) (dstRows x1)) (biasRows128 x3))
        (broadcastInDim S50000x128 ![] bcast_S_S50000x128 (constant S_ .f32 0x00000000#32))
      = act (aggNode128 H (coeff x1) (srcRows x1) (dstRows x1))
          (shapeCast Cert.KernelIdeal.S50000x1 (coeff x1) Cert.KernelIdeal.Facts₀.shapeCasts_S50000_S50000x1)
          (shapeCast S1x128 x3 Cert.KernelIdeal.Facts₀.shapeCasts_S128_S1x128) := by
  funext i
  unfold act
  rw [coeffCol_at, shapeCast_a_1a_apply, maximumf_apply, addf_apply, zeros128_apply,
    agg_scale_128 H (coeff x1) (srcRows x1) (dstRows x1) (coeff_nonneg_ne_top x1) i, biasRows128_at]

/-- THE TWO RESULTS AGREE, as extended reals, entry by entry, for all arguments. -/
theorem out_eq (x0 : FVec Ideal S50000x128 .f32) (x1 : IVec S2x800000 32) (x2 : FVec Ideal S128x128 .f32) (x3 : FVec Ideal S128 .f32)
    (x4 : FVec Ideal S128x64 .f32) (x5 : FVec Ideal S64 .f32) :
    kernelOut x0 x1 x2 x3 x4 x5 = referenceOut x0 x1 x2 x3 x4 x5 := by
  unfold kernelOut referenceOut
  rw [Cert.ReferenceIdeal.Dense.dot1_eq, act_eq, Cert.ReferenceIdeal.Dense.dot2_eq]
  funext i
  rw [addf_apply, addf_apply, mulf_apply, spread64_at,
    agg_scale_64 _ (coeff x1) (srcRows x1) (dstRows x1) (coeff_nonneg_ne_top x1) i]

end Cert.Gcn

end
-- ==== Proof.lean ====
/-
  The certificate of a two-layer graph convolution: a Pallas kernel program against its plain reference.

  Both programs add a self-loop to each of 50000 nodes, take each node's coefficient as the reciprocal square root
  of its in-degree, and apply twice: a dense transform, an aggregation along the 850000 edges weighted by the
  product of the endpoint coefficients, a bias (and, between the layers, a cut-off at zero). The reference weighs
  each edge's row; the kernel program weighs the node rows by the source coefficient before gathering and each
  destination's sum by the destination coefficient afterwards, and computes the two dense transforms (the second
  fused with the scale, bias and cut-off) in kernels over blocks of 5000 rows.

  At the ideal instance the two results are the same extended reals, entry by entry, for ALL arguments: a
  coefficient is a nonnegative real, so it comes out of a destination's sum whatever the summands
  (Proof/ScaleLaw.lean, Proof/AggLaw.lean); the kernels' blocks are the restrictions of the whole products to
  their rows (Proof/Layer1.lean, Proof/Layer2.lean); the rest is reading each program's result as one function of
  its arguments (Proof/KernelRun.lean and Proof/KernelChain.lean for the kernel program, Proof/RefRun.lean and
  Proof/RefValue.lean for the reference) and joining the two (Proof/Bridge.lean). The precondition is not used.
  The ideal pass rewrote nothing, so the preservation claim is the trivial one.
-/
import proofs.«177192_j81406810129168_2_alg».proof.Defs
import proofs.«177192_j81406810129168_2_alg».proof.Proof.Gen.Kernel
import proofs.«177192_j81406810129168_2_alg».proof.Proof.Gen.Kernel.Frame
import proofs.«177192_j81406810129168_2_alg».proof.Proof.Gen.KernelIdeal
import proofs.«177192_j81406810129168_2_alg».proof.Proof.Gen.KernelIdeal.Frame
import proofs.«177192_j81406810129168_2_alg».proof.Proof.Gen.ReferenceIdeal
import proofs.«177192_j81406810129168_2_alg».proof.Proof.Gen.Pre_finite_inputs
import proofs.«177192_j81406810129168_2_alg».proof.Proof.KernelRun
import proofs.«177192_j81406810129168_2_alg».proof.Proof.KernelChain
import proofs.«177192_j81406810129168_2_alg».proof.Proof.RefRun
import proofs.«177192_j81406810129168_2_alg».proof.Proof.RefValue
import proofs.«177192_j81406810129168_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs run, and both end with the result buffer at
    the same function of the arguments. -/
theorem algebraic : Cert.algebraic_KernelIdeal_ReferenceIdeal := by
  intro m ρ m' ρ' _ hagree
  refine ⟨fun c => Cert.Gcn.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]
    exact (Cert.Gcn.out_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
